-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S4x1024x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S16384x1024 .f32) (main_arg3 : FVec F S4x1024x1024 .f32) (main_arg4 : FVec F S4x1024 .f32) (main_arg5 : FVec F S4x1024x1024 .f32) (main_arg6 : FVec F S4x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S16384x1024 : Shape := ⟨2, ![16384, 1024]⟩
abbrev S4x1024x1024 : Shape := ⟨3, ![4, 1024, 1024]⟩
abbrev S4x1024 : Shape := ⟨2, ![4, 1024]⟩
abbrev S1024x4x1024 : Shape := ⟨3, ![1024, 4, 1024]⟩
abbrev S1024x4096 : Shape := ⟨2, ![1024, 4096]⟩
abbrev S256x1024 : Shape := ⟨2, ![256, 1024]⟩
abbrev S1024x1024 : Shape := ⟨2, ![1024, 1024]⟩
abbrev S1x1024 : Shape := ⟨2, ![1, 1024]⟩

abbrev nBuf : Space → Nat
  | .hbm => 16
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S1024x4x1024, .f32⟩
  | .hbm, ⟨8, _⟩ => ⟨S1024x4096, .f32⟩
  | .hbm, ⟨9, _⟩ => ⟨S1024x4096, .bf16⟩
  | .hbm, ⟨10, _⟩ => ⟨S1024x4x1024, .f32⟩
  | .hbm, ⟨11, _⟩ => ⟨S1024x4096, .f32⟩
  | .hbm, ⟨12, _⟩ => ⟨S1024x4096, .bf16⟩
  | .hbm, ⟨13, _⟩ => ⟨S4x1024, .f32⟩
  | .hbm, ⟨14, _⟩ => ⟨S16384x1024, .f32⟩
  | .hbm, ⟨15, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S4x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S4x1024x1024_S1024x4x1024_2_0_1 : S4x1024x1024.Transposes [2, 0, 1] S1024x4x1024
  shapeCasts_S1024x4x1024_S1024x4096 : S1024x4x1024.ShapeCasts S1024x4096
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  inb_S4x1024_S1x1024_0_0 : ∀ a, (![0, 0] : Fin 2 → Nat) a + S1x1024.size a ≤ S4x1024.size a
  h_S1x1024 : 0 < S1x1024.numel
  shapeCasts_S1x1024_S1x1024 : S1x1024.ShapeCasts S1x1024
  broadcasts_S1x1024_S256x1024 : S1x1024.Broadcasts S256x1024
  inb_S1024x4096_S1024x1024_0_1024 : ∀ a, (![0, 1024] : Fin 2 → Nat) a + S1024x1024.size a ≤ S1024x4096.size a
  inb_S4x1024_S1x1024_1_0 : ∀ a, (![1, 0] : Fin 2 → Nat) a + S1x1024.size a ≤ S4x1024.size a
  inb_S1024x4096_S1024x1024_0_2048 : ∀ a, (![0, 2048] : Fin 2 → Nat) a + S1024x1024.size a ≤ S1024x4096.size a
  inb_S4x1024_S1x1024_2_0 : ∀ a, (![2, 0] : Fin 2 → Nat) a + S1x1024.size a ≤ S4x1024.size a
  inb_S1024x4096_S1024x1024_0_3072 : ∀ a, (![0, 3072] : Fin 2 → Nat) a + S1024x1024.size a ≤ S1024x4096.size a
  inb_S4x1024_S1x1024_3_0 : ∀ a, (![3, 0] : Fin 2 → Nat) a + S1x1024.size a ≤ S4x1024.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1024.size a ≤ S4x1024.size a
  hwx0_5 : ∀ i : grid0.Coords, EltTy.bits .f32 = 32 ∨ (Rect.block (s := S4x1024) S4x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4x1024x1024 : Shape := ⟨3, ![4, 1024, 1024]⟩
abbrev S4x1024 : Shape := ⟨2, ![4, 1024]⟩
abbrev S4x1024x16384 : Shape := ⟨3, ![4, 1024, 16384]⟩
abbrev S4x16384x1024 : Shape := ⟨3, ![4, 16384, 1024]⟩
abbrev S4x1x1024 : Shape := ⟨3, ![4, 1, 1024]⟩
abbrev S1x16384x1024 : Shape := ⟨3, ![1, 16384, 1024]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S4x1024x16384, .f32⟩
  | .hbm, ⟨8, _⟩ => ⟨S4x16384x1024, .f32⟩
  | .hbm, ⟨9, _⟩ => ⟨S4x1x1024, .f32⟩
  | .hbm, ⟨10, _⟩ => ⟨S4x16384x1024, .f32⟩
  | .hbm, ⟨11, _⟩ => ⟨S4x16384x1024, .f32⟩
  | .hbm, ⟨12, _⟩ => ⟨S4x1024x16384, .f32⟩
  | .hbm, ⟨13, _⟩ => ⟨S4x16384x1024, .f32⟩
  | .hbm, ⟨14, _⟩ => ⟨S4x1x1024, .f32⟩
  | .hbm, ⟨15, _⟩ => ⟨S4x16384x1024, .f32⟩
  | .hbm, ⟨16, _⟩ => ⟨S4x16384x1024, .f32⟩
  | .hbm, ⟨17, _⟩ => ⟨S4x16384x1024, .f32⟩
  | .hbm, ⟨18, _⟩ => ⟨S1x16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S1x16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S1x16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S1x16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  transposes_S4x1024x16384_S4x16384x1024_0_2_1 : S4x1024x16384.Transposes [0, 2, 1] S4x16384x1024
  bcast_S4x1024_S4x1x1024_0_2 : S4x1024.BroadcastsInDim S4x1x1024 (![0, 2] : Fin 2 → Fin S4x1x1024.rank)
  bcast_S4x1x1024_S4x16384x1024_0_1_2 : S4x1x1024.BroadcastsInDim S4x16384x1024 (![0, 1, 2] : Fin 3 → Fin S4x16384x1024.rank)
  slices_S4x16384x1024_S1x16384x1024_0_0_0 : S4x16384x1024.Slices ![0, 0, 0] S1x16384x1024
  shapeCasts_S1x16384x1024_S16384x1024 : S1x16384x1024.ShapeCasts S16384x1024
  bcast_S_S16384x1024 : S_.BroadcastsInDim S16384x1024 (![] : Fin 0 → Fin S16384x1024.rank)
  slices_S4x16384x1024_S1x16384x1024_1_0_0 : S4x16384x1024.Slices ![1, 0, 0] S1x16384x1024
  slices_S4x16384x1024_S1x16384x1024_2_0_0 : S4x16384x1024.Slices ![2, 0, 0] S1x16384x1024
  slices_S4x16384x1024_S1x16384x1024_3_0_0 : S4x16384x1024.Slices ![3, 0, 0] S1x16384x1024
  dot_S4x1024x1024_S16384x1024_S4x1024x16384_2_1_01_0_n_n_wf : DotDims.WF S4x1024x1024 S16384x1024 S4x1024x16384 [2] [1] [0, 1] [0] [] []

variable [Facts₀]

def dot_S4x1024x1024_S16384x1024_S4x1024x16384_2_1_01_0_n_n : DotDims S4x1024x1024 S16384x1024 S4x1024x16384 where
  lhsContracting := [2]
  rhsContracting := [1]
  lhsNonContracting := [0, 1]
  rhsNonContracting := [0]
  lhsBatch := []
  rhsBatch := []
  wf := dot_S4x1024x1024_S16384x1024_S4x1024x16384_2_1_01_0_n_n_wf

class Facts : Prop extends Facts₀ where

variable [Facts]
-- ==== Proof.LstmSpec.lean ====
/-
  The LSTM cell as one function of its seven argument arrays, index by index, on the extended reals.

  With x, c, h of shape [16384, 1024], Wx, Wh of shape [4, 1024, 1024] and bx, bh of shape [4, 1024], gate g of row r
  at unit s has the pre-activation
      pre g r s = (Σ_k Wx[g,s,k]·x[r,k] + bx[g,s]) + (Σ_k Wh[g,s,k]·h[r,k] + bh[g,s]),
  the new cell state is  c'[r,s] = c[r,s]·σ(pre 0 r s) + σ(pre 1 r s)·tanh(pre 2 r s)  and the output is
  tanh(c'[r,s])·σ(pre 3 r s), where σ z = 1 / (1 + e^(-z)) with the conventions of the extended reals at ±∞.

  Two facts join the two programs to this function. The fused form groups a pre-activation as
  (Σ_k x·Wx + Σ_k h·Wh) + (bx + bh): the same element of the extended reals, because their addition and multiplication
  are commutative and their addition associative (no cancellation, no distributivity: nothing here needs a finite
  input). And σ spelt with negate, exponential, add and divide from the word of 1.0 is the logistic function.
-/
import Idealize.ShloMosaic.PureOps.Ideal
import Idealize.ShloMosaic.PureOps.IdealRules
import Idealize.ShloMosaic.Lib.ValueIdx

noncomputable section

open scoped BigOperators
open Idealize.ShloMosaic Idealize.ShloMosaic.ValueIdx

namespace Cert.Lstm

/-- The batch-by-feature arrays x, c, h and both results. -/
abbrev Rows : Shape := ⟨2, ![16384, 1024]⟩
/-- The per-gate weight arrays Wx, Wh: gate, unit, contracted feature. -/
abbrev Wts : Shape := ⟨3, ![4, 1024, 1024]⟩
/-- The per-gate bias arrays bx, bh. -/
abbrev Bias : Shape := ⟨2, ![4, 1024]⟩

section
variable (X C H : Rows.Idx → EReal) (Wx : Wts.Idx → EReal) (bx : Bias.Idx → EReal) (Wh : Wts.Idx → EReal) (bh : Bias.Idx → EReal)

/-- Gate `g`'s pre-activation of row `r` at unit `s`: the input's and the hidden state's projections, each with its bias. -/
def gate (g : Fin 4) (r : Fin 16384) (s : Fin 1024) : EReal :=
  ((∑ k : Fin 1024, Wx (ix3 g s k) * X (ix2 r k)) + bx (ix2 g s))
    + ((∑ k : Fin 1024, Wh (ix3 g s k) * H (ix2 r k)) + bh (ix2 g s))

/-- The new cell state: the old one through the forget gate plus the candidate through the input gate. -/
def cell (r : Fin 16384) (s : Fin 1024) : EReal :=
  C (ix2 r s) * Ideal.logistic (gate X H Wx bx Wh bh 0 r s)
    + Ideal.logistic (gate X H Wx bx Wh bh 1 r s) * Ideal.tanh (gate X H Wx bx Wh bh 2 r s)

/-- The output: the squashed new cell state through the output gate. -/
def hidden (r : Fin 16384) (s : Fin 1024) : EReal :=
  Ideal.tanh (cell X C H Wx bx Wh bh r s) * Ideal.logistic (gate X H Wx bx Wh bh 3 r s)

/-- The first result array. -/
def newCell : Rows.Idx → EReal := fun i => cell X C H Wx bx Wh bh (i 0) (i 1)

/-- The second result array. -/
def output : Rows.Idx → EReal := fun i => hidden X C H Wx bx Wh bh (i 0) (i 1)

end

/-- The fused grouping of a pre-activation is the separate one: commutativity of the products, then
    (A + B) + (c + d) = (A + c) + (B + d) in a commutative monoid. -/
theorem regroup (a w b u : Fin 1024 → EReal) (c d : EReal) :
    ((∑ k : Fin 1024, a k * w k) + (∑ k : Fin 1024, b k * u k)) + (c + d)
      = ((∑ k : Fin 1024, w k * a k) + c) + ((∑ k : Fin 1024, u k * b k) + d) := by
  rw [Finset.sum_congr rfl (fun k _ => mul_comm (a k) (w k)), Finset.sum_congr rfl (fun k _ => mul_comm (b k) (u k))]
  exact add_add_add_comm _ _ _ _

/-- The word 0x3F800000 denotes 1. -/
theorem one_f32 : Ideal.ofBits .f32 0x3F800000#32 = 1 := IdealRules.sign_bit.ideal_onePat .f32

/-- 1 / (1 + e^(-z)), spelt with the host's negate, exponential, add and divide from the word of 1.0, is the logistic
    function at every extended real. -/
theorem sigmoid_host (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  rw [Ideal.ofBits_def, one_f32]
  rfl

end Cert.Lstm

end
-- ==== Proof.LstmReference.lean ====
/-
  The reference's two results are the specification's two arrays.

  The reference computes all four gates at once as a [4, 16384, 1024] array: each projection is a contraction of the
  weights' last axis with the rows' last axis, transposed so that the batch row comes before the unit, plus the bias
  broadcast over the rows; the two projections are added; gate g is the g-th slice, reshaped to [16384, 1024]. Read at
  (g, r, s) that array is `gate g r s` as the specification spells it, term for term; the slice and the reshape only
  rename the index. The logistic function appears expanded into negate, exponential, add and divide.
-/
import proofs.«169616_j11759620456639_2_alg».proof.Proof.Gen.ReferenceIdeal.Read
import proofs.«169616_j11759620456639_2_alg».proof.Proof.LstmSpec

noncomputable section

open scoped BigOperators
open Idealize.ShloMosaic Idealize.ShloMosaic.ValueIdx

namespace Cert.Lstm.Ref

open Cert.ReferenceIdeal Cert.ReferenceIdeal.Read

variable (x0 x1 x2 : FVec Ideal S16384x1024 .f32) (x3 : FVec Ideal S4x1024x1024 .f32) (x4 : FVec Ideal S4x1024 .f32)
  (x5 : FVec Ideal S4x1024x1024 .f32) (x6 : FVec Ideal S4x1024 .f32)

/-- The four stacked pre-activations, read at gate `g`, row `r`, unit `s`. -/
theorem stacked_apply (g : Fin 4) (r : Fin 16384) (s : Fin 1024) :
    val_main_v10 (F := Ideal) x0 x2 x3 x4 x5 x6 (ix3 g r s) = gate x0 x2 x3 x4 x5 x6 g r s := by
  have el : ∀ k : Fin 1024, lidx_main_v0 (idx_main_v1 (ix3 g r s)) k = ix3 g s k := fun k => funext fun a => Fin.ext (by
    match a with | ⟨0, _⟩ => rfl | ⟨1, _⟩ => rfl | ⟨2, _⟩ => rfl)
  have er : ∀ k : Fin 1024, ridx_main_v0 (idx_main_v1 (ix3 g r s)) k = ix2 r k := fun k => funext fun a => Fin.ext (by
    match a with | ⟨0, _⟩ => rfl | ⟨1, _⟩ => rfl)
  have el' : ∀ k : Fin 1024, lidx_main_v5 (idx_main_v6 (ix3 g r s)) k = ix3 g s k := fun k => funext fun a => Fin.ext (by
    match a with | ⟨0, _⟩ => rfl | ⟨1, _⟩ => rfl | ⟨2, _⟩ => rfl)
  have er' : ∀ k : Fin 1024, ridx_main_v5 (idx_main_v6 (ix3 g r s)) k = ix2 r k := fun k => funext fun a => Fin.ext (by
    match a with | ⟨0, _⟩ => rfl | ⟨1, _⟩ => rfl)
  have eb : idx_main_v2 (idx_main_v3 (ix3 g r s)) = ix2 g s := funext fun a => Fin.ext (by
    match a with | ⟨0, _⟩ => rfl | ⟨1, _⟩ => rfl)
  have eb' : idx_main_v7 (idx_main_v8 (ix3 g r s)) = ix2 g s := funext fun a => Fin.ext (by
    match a with | ⟨0, _⟩ => rfl | ⟨1, _⟩ => rfl)
  rw [val_main_v10_apply, val_main_v4_apply, val_main_v9_apply, val_main_v1_apply, val_main_v3_apply, val_main_v2_apply,
    val_main_v6_apply, val_main_v8_apply, val_main_v7_apply, val_main_v0_apply, val_main_v5_apply]
  simp only [el, er, el', er', eb, eb']
  rfl

/-- Gate 0's slice, reshaped, at (r, s). -/
theorem gate0_apply (r : Fin 16384) (s : Fin 1024) :
    val_main_v12 (F := Ideal) x0 x2 x3 x4 x5 x6 (ix2 r s) = gate x0 x2 x3 x4 x5 x6 0 r s := by
  have e : idx_main_v11 (idx_main_v12 (ix2 r s)) = ix3 (0 : Fin 4) r s := funext fun a => Fin.ext (by
    have hr : r.val < 16384 := r.isLt
    have hs : s.val < 1024 := s.isLt
    match a with
    | ⟨0, _⟩ => rfl
    | ⟨1, _⟩ => show (r.val * 1024 + s.val) / 1024 % 16384 = r.val; omega
    | ⟨2, _⟩ => show (r.val * 1024 + s.val) % 1024 = s.val; omega)
  rw [val_main_v12_apply, val_main_v11_apply, e, stacked_apply]

/-- Gate 1's. -/
theorem gate1_apply (r : Fin 16384) (s : Fin 1024) :
    val_main_v20 (F := Ideal) x0 x2 x3 x4 x5 x6 (ix2 r s) = gate x0 x2 x3 x4 x5 x6 1 r s := by
  have e : idx_main_v19 (idx_main_v20 (ix2 r s)) = ix3 (1 : Fin 4) r s := funext fun a => Fin.ext (by
    have hr : r.val < 16384 := r.isLt
    have hs : s.val < 1024 := s.isLt
    match a with
    | ⟨0, _⟩ => rfl
    | ⟨1, _⟩ => show (r.val * 1024 + s.val) / 1024 % 16384 = r.val; omega
    | ⟨2, _⟩ => show (r.val * 1024 + s.val) % 1024 = s.val; omega)
  rw [val_main_v20_apply, val_main_v19_apply, e, stacked_apply]

/-- Gate 2's. -/
theorem gate2_apply (r : Fin 16384) (s : Fin 1024) :
    val_main_v28 (F := Ideal) x0 x2 x3 x4 x5 x6 (ix2 r s) = gate x0 x2 x3 x4 x5 x6 2 r s := by
  have e : idx_main_v27 (idx_main_v28 (ix2 r s)) = ix3 (2 : Fin 4) r s := funext fun a => Fin.ext (by
    have hr : r.val < 16384 := r.isLt
    have hs : s.val < 1024 := s.isLt
    match a with
    | ⟨0, _⟩ => rfl
    | ⟨1, _⟩ => show (r.val * 1024 + s.val) / 1024 % 16384 = r.val; omega
    | ⟨2, _⟩ => show (r.val * 1024 + s.val) % 1024 = s.val; omega)
  rw [val_main_v28_apply, val_main_v27_apply, e, stacked_apply]

/-- Gate 3's. -/
theorem gate3_apply (r : Fin 16384) (s : Fin 1024) :
    val_main_v35 (F := Ideal) x0 x2 x3 x4 x5 x6 (ix2 r s) = gate x0 x2 x3 x4 x5 x6 3 r s := by
  have e : idx_main_v34 (idx_main_v35 (ix2 r s)) = ix3 (3 : Fin 4) r s := funext fun a => Fin.ext (by
    have hr : r.val < 16384 := r.isLt
    have hs : s.val < 1024 := s.isLt
    match a with
    | ⟨0, _⟩ => rfl
    | ⟨1, _⟩ => show (r.val * 1024 + s.val) / 1024 % 16384 = r.val; omega
    | ⟨2, _⟩ => show (r.val * 1024 + s.val) % 1024 = s.val; omega)
  rw [val_main_v35_apply, val_main_v34_apply, e, stacked_apply]

/-- The forget gate's value at (r, s). -/
theorem forget_apply (r : Fin 16384) (s : Fin 1024) :
    val_main_v18 (F := Ideal) x0 x2 x3 x4 x5 x6 (ix2 r s) = Ideal.logistic (gate x0 x2 x3 x4 x5 x6 0 r s) := by
  rw [val_main_v18_apply, val_main_v17_apply, val_main_cst_0_apply, val_main_v16_apply, val_main_v15_apply,
    val_main_cst_apply, val_main_v14_apply, val_main_v13_apply, gate0_apply]
  exact sigmoid_host _

/-- The input gate's. -/
theorem input_apply (r : Fin 16384) (s : Fin 1024) :
    val_main_v26 (F := Ideal) x0 x2 x3 x4 x5 x6 (ix2 r s) = Ideal.logistic (gate x0 x2 x3 x4 x5 x6 1 r s) := by
  rw [val_main_v26_apply, val_main_v25_apply, val_main_cst_2_apply, val_main_v24_apply, val_main_v23_apply,
    val_main_cst_1_apply, val_main_v22_apply, val_main_v21_apply, gate1_apply]
  exact sigmoid_host _

/-- The output gate's. -/
theorem outgate_apply (r : Fin 16384) (s : Fin 1024) :
    val_main_v41 (F := Ideal) x0 x2 x3 x4 x5 x6 (ix2 r s) = Ideal.logistic (gate x0 x2 x3 x4 x5 x6 3 r s) := by
  rw [val_main_v41_apply, val_main_v40_apply, val_main_cst_4_apply, val_main_v39_apply, val_main_v38_apply,
    val_main_cst_3_apply, val_main_v37_apply, val_main_v36_apply, gate3_apply]
  exact sigmoid_host _

/-- The reference's first result at (r, s) is the new cell state. -/
theorem cell_apply (r : Fin 16384) (s : Fin 1024) :
    val_main_v32 (F := Ideal) x0 x1 x2 x3 x4 x5 x6 (ix2 r s) = cell x0 x1 x2 x3 x4 x5 x6 r s := by
  rw [val_main_v32_apply, val_main_v31_apply, val_main_v30_apply, val_main_v29_apply, forget_apply, input_apply, gate2_apply]
  rfl

/-- THE REFERENCE'S FIRST RESULT is `newCell` of its arguments. -/
theorem newCell_eq : val_main_v32 (F := Ideal) x0 x1 x2 x3 x4 x5 x6 = newCell x0 x1 x2 x3 x4 x5 x6 := by
  funext i
  obtain ⟨r, s, rfl⟩ : ∃ (r : Fin 16384) (s : Fin 1024), i = ix2 r s := ⟨i 0, i 1, eq_ix2 i⟩
  exact cell_apply x0 x1 x2 x3 x4 x5 x6 r s

/-- THE REFERENCE'S SECOND RESULT is `output` of its arguments. -/
theorem output_eq : val_main_v42 (F := Ideal) x0 x1 x2 x3 x4 x5 x6 = output x0 x1 x2 x3 x4 x5 x6 := by
  funext i
  obtain ⟨r, s, rfl⟩ : ∃ (r : Fin 16384) (s : Fin 1024), i = ix2 r s := ⟨i 0, i 1, eq_ix2 i⟩
  rw [val_main_v42_apply, val_main_v33_apply, cell_apply, outgate_apply]
  rfl

end Cert.Lstm.Ref

end
-- ==== Proof.LstmBody.lean ====
/-
  What one grid step leaves in its two output blocks, element by element.

  A step holds 256 rows of x, of h and of c (blocks x0, x1, x2 of shape [256, 1024]), both re-laid weight arrays whole
  (x3, x4 of shape [1024, 4096]: column g·1024 + s of row k is gate g's weight of unit s at contracted feature k) and the
  summed biases whole (x5 of shape [4, 1024]). For each gate g it takes the [1024, 1024] column band g of each weight
  array, multiplies the rows of x and of h into it on the matrix unit from a zero accumulator, adds the two products,
  and adds row g of the biases broadcast over the 256 rows. At local row p and unit s that is
      (Σ_k x0[p,k]·x3[k, g·1024+s] + Σ_k x1[p,k]·x4[k, g·1024+s]) + x5[g,s]
  (`blockGate`): a product into a zero accumulator is the plain sum over the contracted axis, rounding the operands to
  bf16 changes nothing on the extended reals, and a band of a whole array read at (k, s) is the array at (k, g·1024+s).
  The first block stored is  x2·σ(gate 0) + σ(gate 1)·tanh(gate 2),  the second  tanh(first)·σ(gate 3).
-/
import proofs.«169616_j11759620456639_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.Lstm.Body

open Cert.KernelIdeal Cert.KernelIdeal.Gen

/-- The dimension numbers of every product in the body: the left operand's columns against the right operand's rows. -/
abbrev rowsByCols : DotDims S256x1024 S1024x1024 S256x1024 := dot_S256x1024_S1024x1024_S256x1024_1_0_0_1_n_n

/-! ## One product, one bias row, one gate -/

theorem lhs_row (i : S256x1024.Idx) (q : rowsByCols.contr.Idx) : (rowsByCols.lhsIdx i q 0).val = (i 0).val := by
  unfold DotDims.lhsIdx
  rw [dif_neg (show ¬(0 : Fin S256x1024.rank) ∈ rowsByCols.lhsBatch by decide),
    dif_pos (show (0 : Fin S256x1024.rank) ∈ rowsByCols.lhsNonContracting by decide)]
  rfl

theorem lhs_contr (i : S256x1024.Idx) (q : rowsByCols.contr.Idx) : (rowsByCols.lhsIdx i q 1).val = (q ⟨0, by decide⟩).val :=
  rowsByCols.lhsIdx_val_of_single rfl i q

theorem rhs_contr (i : S256x1024.Idx) (q : rowsByCols.contr.Idx) : (rowsByCols.rhsIdx i q 0).val = (q ⟨0, by decide⟩).val :=
  rowsByCols.rhsIdx_val_of_single rfl i q

theorem rhs_col (i : S256x1024.Idx) (q : rowsByCols.contr.Idx) : (rowsByCols.rhsIdx i q 1).val = (i 1).val := by
  unfold DotDims.rhsIdx
  rw [dif_neg (show ¬(1 : Fin S1024x1024.rank) ∈ rowsByCols.rhsBatch by decide),
    dif_pos (show (1 : Fin S1024x1024.rank) ∈ rowsByCols.rhsNonContracting by decide)]
  rfl

/-- A product into the zero accumulator, at row `p` and column `s`: the sum over the contracted axis. -/
theorem prod_apply (a : FVec Ideal S256x1024 .bf16) (w : FVec Ideal S1024x1024 .bf16) (p : Fin 256) (s : Fin 1024) :
    matmul rowsByCols none a w (constant S256x1024 .f32 0x00000000#32) (ix2 p s)
      = ∑ k : Fin 1024, a (ix2 p k) * w (ix2 k s) := by
  simp only [matmul]
  rw [Ideal.matmul_constant_zero_apply, ← Equiv.sum_comp (contrEquiv1 rowsByCols 1024 rfl rfl).symm]
  refine Finset.sum_congr rfl fun k _ => ?_
  have hk := contrEquiv1_symm_val rowsByCols 1024 rfl rfl k
  have el : rowsByCols.lhsIdx (ix2 p s) ((contrEquiv1 rowsByCols 1024 rfl rfl).symm k) = ix2 p k := funext fun a => Fin.ext (by
    match a with
    | ⟨0, _⟩ => exact lhs_row _ _
    | ⟨1, _⟩ => exact (lhs_contr _ _).trans hk)
  have er : rowsByCols.rhsIdx (ix2 p s) ((contrEquiv1 rowsByCols 1024 rfl rfl).symm k) = ix2 k s := funext fun a => Fin.ext (by
    match a with
    | ⟨0, _⟩ => exact (rhs_contr _ _).trans hk
    | ⟨1, _⟩ => exact rhs_col _ _)
  rw [el, er]

/-- One row of biases broadcast over the block's rows, at (p, s). -/
theorem bias_apply (b : FVec Ideal S1x1024 .f32) (p : Fin 256) (s : Fin 1024) :
    broadcastTo S256x1024 b broadcasts_S1x1024_S256x1024 (ix2 p s) = b (ix2 (0 : Fin 1) s) :=
  broadcastTo_1b_ab_apply b broadcasts_S1x1024_S256x1024 p s

/-- A gate's pre-activation as the body spells it, from the two row blocks, the gate's two weight bands and its bias row. -/
def gateVec (xb hb : FVec Ideal S256x1024 .f32) (wx wh : FVec Ideal S1024x1024 .bf16) (bb : FVec Ideal S1x1024 .f32) :
    FVec Ideal S256x1024 .f32 :=
  addf (addf (matmul rowsByCols none (truncf .bf16 xb bitsLt_bf16_f32) (shapeCast S1024x1024 wx shapeCasts_S1024x1024_S1024x1024)
        (constant S256x1024 .f32 0x00000000#32))
      (matmul rowsByCols none (truncf .bf16 hb bitsLt_bf16_f32) (shapeCast S1024x1024 wh shapeCasts_S1024x1024_S1024x1024)
        (constant S256x1024 .f32 0x00000000#32)))
    (broadcastTo S256x1024 (shapeCast S1x1024 bb shapeCasts_S1x1024_S1x1024) broadcasts_S1x1024_S256x1024)

theorem gateVec_apply (xb hb : FVec Ideal S256x1024 .f32) (wx wh : FVec Ideal S1024x1024 .bf16) (bb : FVec Ideal S1x1024 .f32)
    (p : Fin 256) (s : Fin 1024) :
    gateVec xb hb wx wh bb (ix2 p s)
      = ((∑ k : Fin 1024, xb (ix2 p k) * wx (ix2 k s)) + (∑ k : Fin 1024, hb (ix2 p k) * wh (ix2 k s))) + bb (ix2 (0 : Fin 1) s) := by
  unfold gateVec
  simp only [shapeCast_self]
  show (matmul rowsByCols none _ _ _ (ix2 p s) + matmul rowsByCols none _ _ _ (ix2 p s)) + broadcastTo S256x1024 _ _ (ix2 p s) = _
  rw [prod_apply, prod_apply, bias_apply]
  rfl

/-! ## The payloads are these gates -/

/-- The first block stored, over the body's loads. -/
theorem pay1_eq (v0 v2 v4 : FVec Ideal S256x1024 .f32) (v5 v8 v18 v21 v30 v33 : FVec Ideal S1024x1024 .bf16)
    (v12 v25 v37 : FVec Ideal S1x1024 .f32) :
    k0_pay1 (F := Ideal) (k0_pay4 v2) (k0_pay5 v0 v2 v4 v5 v8 v12) (k0_pay6 v0 v2 v18 v21 v25) (k0_pay7 v0 v30) v33 v37
      = addf (mulf v4 (logistic (gateVec v0 v2 v5 v8 v12)))
          (mulf (logistic (gateVec v0 v2 v18 v21 v25)) (tanh (gateVec v0 v2 v30 v33 v37))) := rfl

/-- The second block stored. -/
theorem pay2_eq (v0 v2 v4 : FVec Ideal S256x1024 .f32) (v5 v8 v18 v21 v30 v33 v45 v48 : FVec Ideal S1024x1024 .bf16)
    (v12 v25 v37 v52 : FVec Ideal S1x1024 .f32) :
    k0_pay2 (F := Ideal) (k0_pay3 v0) (k0_pay4 v2) (k0_pay5 v0 v2 v4 v5 v8 v12) (k0_pay6 v0 v2 v18 v21 v25) (k0_pay7 v0 v30) v33 v37 v45 v48 v52
      = mulf (tanh (addf (mulf v4 (logistic (gateVec v0 v2 v5 v8 v12)))
            (mulf (logistic (gateVec v0 v2 v18 v21 v25)) (tanh (gateVec v0 v2 v30 v33 v37)))))
          (logistic (gateVec v0 v2 v45 v48 v52)) := rfl

/-! ## A band of a weight array, a row of the biases -/

/-- Column `s` of gate `g`'s band is column `g·1024 + s` of the whole re-laid array. -/
def col (g : Fin 4) (s : Fin 1024) : Fin 4096 := ⟨g.val * 1024 + s.val, by have := g.isLt; have := s.isLt; omega⟩

/-- The band of columns from `o`, read at (k, s). -/
theorem band_apply (x : FVec Ideal S1024x4096 .bf16) (o : Nat)
    (inb : ∀ a, (![0, o] : Fin 2 → Nat) a + S1024x1024.size a ≤ S1024x4096.size a) (k s : Fin 1024) (c : Fin 4096) (hc : c.val = o + s.val) :
    (View.ld (Val := Elt Ideal) (e' := .bf16) x (Rect.unit (s := S1024x4096) ![0, o] S1024x1024.size inb) : FVec Ideal S1024x1024 .bf16) (ix2 k s) = x (ix2 k c) := by
  show x _ = x _
  refine congrArg x (funext fun a => Fin.ext ?_)
  match a with
  | ⟨0, _⟩ => show 0 + 1 * k.val = k.val; omega
  | ⟨1, _⟩ => show o + 1 * s.val = c.val; omega

/-- Row `g` of the biases, read at (0, s). -/
theorem row_apply (x : FVec Ideal S4x1024 .f32) (o : Nat)
    (inb : ∀ a, (![o, 0] : Fin 2 → Nat) a + S1x1024.size a ≤ S4x1024.size a) (g : Fin 4) (s : Fin 1024) (hg : g.val = o) :
    (View.ld (Val := Elt Ideal) (e' := .f32) x (Rect.unit (s := S4x1024) ![o, 0] S1x1024.size inb) : FVec Ideal S1x1024 .f32) (ix2 (0 : Fin 1) s) = x (ix2 g s) := by
  show x _ = x _
  refine congrArg x (funext fun a => Fin.ext ?_)
  match a with
  | ⟨0, _⟩ => show o + 1 * 0 = g.val; omega
  | ⟨1, _⟩ => show 0 + 1 * s.val = s.val; omega

/-! ## The two blocks at (p, s) -/

section
variable (x0 x1 x2 : FVec Ideal S256x1024 .f32) (x3 x4 : FVec Ideal S1024x4096 .bf16) (x5 : FVec Ideal S4x1024 .f32)

/-- Gate `g`'s pre-activation at local row `p` and unit `s`, from the step's blocks. -/
def blockGate (g : Fin 4) (p : Fin 256) (s : Fin 1024) : EReal :=
  ((∑ k : Fin 1024, x0 (ix2 p k) * x3 (ix2 k (col g s))) + (∑ k : Fin 1024, x1 (ix2 p k) * x4 (ix2 k (col g s)))) + x5 (ix2 g s)

/-- The new cell state at local row `p` and unit `s`. -/
def blockCell (p : Fin 256) (s : Fin 1024) : EReal :=
  x2 (ix2 p s) * Ideal.logistic (blockGate x0 x1 x3 x4 x5 0 p s)
    + Ideal.logistic (blockGate x0 x1 x3 x4 x5 1 p s) * Ideal.tanh (blockGate x0 x1 x3 x4 x5 2 p s)

theorem gate0_apply (p : Fin 256) (s : Fin 1024) :
    gateVec x0 x1 (View.ld (Val := Elt Ideal) (e' := .bf16) x3 r0_1) (View.ld (Val := Elt Ideal) (e' := .bf16) x4 r0_1) (View.ld (Val := Elt Ideal) (e' := .f32) x5 r0_2) (ix2 p s) = blockGate x0 x1 x3 x4 x5 0 p s := by
  rw [gateVec_apply]
  unfold blockGate
  rw [row_apply x5 0 _ 0 s rfl]
  simp only [band_apply x3 0 _ _ s (col 0 s) (by show 0 * 1024 + s.val = 0 + s.val; omega),
    band_apply x4 0 _ _ s (col 0 s) (by show 0 * 1024 + s.val = 0 + s.val; omega)]

theorem gate1_apply (p : Fin 256) (s : Fin 1024) :
    gateVec x0 x1 (View.ld (Val := Elt Ideal) (e' := .bf16) x3 r0_3) (View.ld (Val := Elt Ideal) (e' := .bf16) x4 r0_3) (View.ld (Val := Elt Ideal) (e' := .f32) x5 r0_4) (ix2 p s) = blockGate x0 x1 x3 x4 x5 1 p s := by
  rw [gateVec_apply]
  unfold blockGate
  rw [row_apply x5 1 _ 1 s rfl]
  simp only [band_apply x3 1024 _ _ s (col 1 s) (by show 1 * 1024 + s.val = 1024 + s.val; omega),
    band_apply x4 1024 _ _ s (col 1 s) (by show 1 * 1024 + s.val = 1024 + s.val; omega)]

theorem gate2_apply (p : Fin 256) (s : Fin 1024) :
    gateVec x0 x1 (View.ld (Val := Elt Ideal) (e' := .bf16) x3 r0_5) (View.ld (Val := Elt Ideal) (e' := .bf16) x4 r0_5) (View.ld (Val := Elt Ideal) (e' := .f32) x5 r0_6) (ix2 p s) = blockGate x0 x1 x3 x4 x5 2 p s := by
  rw [gateVec_apply]
  unfold blockGate
  rw [row_apply x5 2 _ 2 s rfl]
  simp only [band_apply x3 2048 _ _ s (col 2 s) (by show 2 * 1024 + s.val = 2048 + s.val; omega),
    band_apply x4 2048 _ _ s (col 2 s) (by show 2 * 1024 + s.val = 2048 + s.val; omega)]

theorem gate3_apply (p : Fin 256) (s : Fin 1024) :
    gateVec x0 x1 (View.ld (Val := Elt Ideal) (e' := .bf16) x3 r0_7) (View.ld (Val := Elt Ideal) (e' := .bf16) x4 r0_7) (View.ld (Val := Elt Ideal) (e' := .f32) x5 r0_8) (ix2 p s) = blockGate x0 x1 x3 x4 x5 3 p s := by
  rw [gateVec_apply]
  unfold blockGate
  rw [row_apply x5 3 _ 3 s rfl]
  simp only [band_apply x3 3072 _ _ s (col 3 s) (by show 3 * 1024 + s.val = 3072 + s.val; omega),
    band_apply x4 3072 _ _ s (col 3 s) (by show 3 * 1024 + s.val = 3072 + s.val; omega)]

theorem hz : (![0, 0] : Fin 2 → Nat) = fun _ => 0 := funext fun a => by fin_cases a <;> rfl

/-- THE FIRST OUTPUT BLOCK at (p, s). -/
theorem out_cell_apply (p : Fin 256) (s : Fin 1024) :
    out0_6 (F := Ideal) x0 x1 x2 x3 x4 x5 (ix2 p s) = blockCell x0 x1 x2 x3 x4 x5 p s := by
  unfold out0_6
  rw [View.canon_unit_zero hz]
  simp only [View.ld_unit_zero (S := S256x1024) hz]
  rw [pay1_eq]
  show x2 (ix2 p s) * Ideal.logistic (gateVec _ _ _ _ _ (ix2 p s))
      + Ideal.logistic (gateVec _ _ _ _ _ (ix2 p s)) * Ideal.tanh (gateVec _ _ _ _ _ (ix2 p s)) = _
  rw [gate0_apply, gate1_apply, gate2_apply]
  rfl

/-- THE SECOND OUTPUT BLOCK at (p, s). -/
theorem out_hidden_apply (p : Fin 256) (s : Fin 1024) :
    out0_7 (F := Ideal) x0 x1 x2 x3 x4 x5 (ix2 p s)
      = Ideal.tanh (blockCell x0 x1 x2 x3 x4 x5 p s) * Ideal.logistic (blockGate x0 x1 x3 x4 x5 3 p s) := by
  unfold out0_7
  rw [View.canon_unit_zero hz]
  simp only [View.ld_unit_zero (S := S256x1024) hz]
  rw [pay2_eq]
  show Ideal.tanh (x2 (ix2 p s) * Ideal.logistic (gateVec _ _ _ _ _ (ix2 p s))
      + Ideal.logistic (gateVec _ _ _ _ _ (ix2 p s)) * Ideal.tanh (gateVec _ _ _ _ _ (ix2 p s)))
      * Ideal.logistic (gateVec _ _ _ _ _ (ix2 p s)) = _
  rw [gate0_apply, gate1_apply, gate2_apply, gate3_apply]
  rfl

end

end Cert.Lstm.Body

end
-- ==== Proof.LstmHost.lean ====
/-
  What the three arrays prepared before the call hold when the call is entered.

  Each weight array W of shape [4, 1024, 1024] (gate, unit, feature) is transposed to (feature, gate, unit), flattened
  to [1024, 4096] and rounded to bf16: on the extended reals the rounding is the identity, so row k, column g·1024 + s
  of the re-laid array is W[g, s, k]. The third array is the elementwise sum of the two bias arrays.
-/
import proofs.«169616_j11759620456639_2_alg».proof.Proof.Gen.KernelIdeal.Frame
import Idealize.ShloMosaic.Lib.StableHlo.Run
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.Lstm.Host

open Cert.KernelIdeal Cert.KernelIdeal.Gen

/-- A weight array re-laid for the call: (gate, unit, feature) to (feature, gate·1024 + unit). -/
def relaid (W : FVec Ideal S4x1024x1024 .f32) : FVec Ideal S1024x4096 .bf16 :=
  truncf .bf16 (shapeCast S1024x4096 (transpose S1024x4x1024 [2, 0, 1] W transposes_S4x1024x1024_S1024x4x1024_2_0_1)
    shapeCasts_S1024x4x1024_S1024x4096) bitsLt_bf16_f32

/-- Row `k`, column `g·1024 + s` of the re-laid array is `W[g, s, k]`. -/
theorem relaid_apply (W : FVec Ideal S4x1024x1024 .f32) (k : Fin 1024) (g : Fin 4) (s : Fin 1024) (j : Fin 4096)
    (hj : j.val = g.val * 1024 + s.val) : relaid W (ix2 k j) = W (ix3 g s k) := by
  unfold relaid
  show (shapeCast S1024x4096 (transpose S1024x4x1024 [2, 0, 1] W transposes_S4x1024x1024_S1024x4x1024_2_0_1)
      shapeCasts_S1024x4x1024_S1024x4096 : FVec Ideal S1024x4096 .f32) (ix2 k j) = _
  refine (shapeCast_apply _ shapeCasts_S1024x4x1024_S1024x4096 (ix2 k j) (ix3 k g s) ?_).trans ?_
  · rw [Shape.rowMajor_val_three, Shape.rowMajor_val_two]
    show (k.val * 4 + g.val) * 1024 + s.val = k.val * 4096 + j.val
    omega
  · exact transpose_apply [2, 0, 1] W transposes_S4x1024x1024_S1024x4x1024_2_0_1 (ix3 k g s) (ix3 g s k)
      (fun b => match b with | ⟨0, _⟩ => rfl | ⟨1, _⟩ => rfl | ⟨2, _⟩ => rfl)

/-- The same at any index of the re-laid array whose coordinates are known. -/
theorem relaid_at (W : FVec Ideal S4x1024x1024 .f32) (z : S1024x4096.Idx) (k : Fin 1024) (g : Fin 4) (s : Fin 1024)
    (h0 : (z 0).val = k.val) (h1 : (z 1).val = g.val * 1024 + s.val) : relaid W z = W (ix3 g s k) := by
  obtain ⟨k', j, rfl⟩ : ∃ (k' : Fin 1024) (j : Fin 4096), z = ix2 k' j := ⟨z 0, z 1, eq_ix2 z⟩
  obtain rfl : k' = k := Fin.ext h0
  exact relaid_apply W k' g s j h1

variable (m : (ℓ : Loc nD τ sig) → Buf (Elt Ideal) ℓ)

/-- The call finds the input weights re-laid, -/
theorem V_inputWeights (c : Dev nD) :
    (V m c main_v2 : FVec Ideal S1024x4096 .bf16) = relaid (m ((c : Thread nD τ).loc main_arg3)) := by
  dsimp only [V, hostOps0]; after_results <;> rfl

/-- the hidden-state weights re-laid, -/
theorem V_hiddenWeights (c : Dev nD) :
    (V m c main_v5 : FVec Ideal S1024x4096 .bf16) = relaid (m ((c : Thread nD τ).loc main_arg5)) := by
  dsimp only [V, hostOps0]; after_results <;> rfl

/-- and the two biases added. -/
theorem V_biasSum (c : Dev nD) :
    @Eq (FVec Ideal S4x1024 .f32) (V m c main_v6)
      (addf (F := Ideal) (s := S4x1024) (φ := .f32) (m ((c : Thread nD τ).loc main_arg4)) (m ((c : Thread nD τ).loc main_arg6))) := by
  dsimp only [V, hostOps0]; after_results <;> rfl

end Cert.Lstm.Host

end
-- ==== Proof.LstmBlocks.lean ====
/-
  From what each grid step writes to the two whole result arrays.

  The grid has 64 steps. Step t stages rows 256·t … 256·t + 255 of x, h and c, the two re-laid weight arrays and the
  summed biases whole, and writes back rows 256·t … 256·t + 255 of both results. Read through those windows, a step's
  gate at local row p is the specification's gate at row 256·t + p: the row blocks are rows of the arguments, a column
  g·1024 + s of a re-laid weight array is the weight (g, s, ·), the summed bias is bx + bh, and the fused grouping of
  the sum is the separate one (`Lstm.regroup`). So every step writes a block of ONE function of the arguments
  (`newCell`, `output`), and since the 64 row blocks cover all 16384 rows, each result array ends as that function.
-/
import proofs.«169616_j11759620456639_2_alg».proof.Proof.Gen.KernelIdeal.Value
import proofs.«169616_j11759620456639_2_alg».proof.Proof.LstmSpec
import proofs.«169616_j11759620456639_2_alg».proof.Proof.LstmBody
import proofs.«169616_j11759620456639_2_alg».proof.Proof.LstmHost

noncomputable section

open scoped BigOperators
open Idealize.ShloMosaic Idealize.ShloMosaic.TcCoe Idealize.ShloMosaic.ValueIdx Idealize.SL.Sem
open Idealize.ShloMosaic.Pipeline (Dat)

namespace Cert.Lstm.Blocks

open Cert.KernelIdeal Cert.KernelIdeal.Gen Cert.Lstm.Body Cert.Lstm.Host

/-! ## A step's gate from its blocks is the specification's gate of the row it computes -/

/-- Over any blocks that read as the arguments do: rows `p` of the row blocks are rows `r` of x and h, column
    `g·1024 + s` of the weight blocks is the weight (g, s, ·), and the bias block is the sum of the two biases. -/
theorem blockGate_eq (x0 x1 : FVec Ideal S256x1024 .f32) (x3 x4 : FVec Ideal S1024x4096 .bf16) (x5 : FVec Ideal S4x1024 .f32)
    (X H : FVec Ideal S16384x1024 .f32) (Wx : FVec Ideal S4x1024x1024 .f32) (bx : FVec Ideal S4x1024 .f32)
    (Wh : FVec Ideal S4x1024x1024 .f32) (bh : FVec Ideal S4x1024 .f32)
    (g : Fin 4) (p : Fin 256) (s : Fin 1024) (r : Fin 16384)
    (h0 : ∀ k : Fin 1024, x0 (ix2 p k) = X (ix2 r k)) (h1 : ∀ k : Fin 1024, x1 (ix2 p k) = H (ix2 r k))
    (h3 : ∀ k : Fin 1024, x3 (ix2 k (col g s)) = Wx (ix3 g s k)) (h4 : ∀ k : Fin 1024, x4 (ix2 k (col g s)) = Wh (ix3 g s k))
    (h5 : x5 (ix2 g s) = bx (ix2 g s) + bh (ix2 g s)) :
    blockGate x0 x1 x3 x4 x5 g p s = gate X H Wx bx Wh bh g r s := by
  unfold blockGate gate
  simp only [h0, h1, h3, h4, h5]
  exact regroup _ _ _ _ _ _

variable (m : (ℓ : Loc nD τ sig) → Buf (Elt Ideal) ℓ) (ρ : Dev nD → PrngReg)

/-! ## The windows' blocks, read as the arguments -/

/-- The printed index maps, decided over the 64 steps: the three row windows and the two result windows move one
    block of rows per step, the weights' and the biases' windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of step `t`'s block of x is row `256·t + p` of x. -/
theorem xRows (c : Dev nD) (t : Fin cfg0.N) (p : Fin 256) (k : Fin 1024) (r : Fin 16384) (hr : r.val = t.val * 256 + p.val) :
    (iblk m c 0 t : FVec Ideal S256x1024 .f32) (ix2 p k) = (m ((c : Thread nD τ).loc main_arg0) : FVec Ideal S16384x1024 .f32) (ix2 r k) := by
  obtain ⟨e00, e01, e10, e11, e20, e21, e30, e31, e40, e41, e50, e51, e60, e61, e70, e71⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 256 + 1 * p.val = r.val; rw [e00, hr]; omega
  | ⟨1, _⟩ => show win0_0.index t (1 : Fin 2) * 1024 + 1 * k.val = k.val; rw [e01]; omega

/-- The same of h (the call's second operand). -/
theorem hRows (c : Dev nD) (t : Fin cfg0.N) (p : Fin 256) (k : Fin 1024) (r : Fin 16384) (hr : r.val = t.val * 256 + p.val) :
    (iblk m c 1 t : FVec Ideal S256x1024 .f32) (ix2 p k) = (m ((c : Thread nD τ).loc main_arg2) : FVec Ideal S16384x1024 .f32) (ix2 r k) := by
  obtain ⟨e00, e01, e10, e11, e20, e21, e30, e31, e40, e41, e50, e51, e60, e61, e70, e71⟩ := idx_facts t
  unfold iblk
  rw [View.read_apply]
  show V m c main_arg2 _ = _
  rw [V_main_arg2]
  refine congrArg _ (funext fun a => Fin.ext ?_)
  match a with
  | ⟨0, _⟩ => show win0_1.index t (0 : Fin 2) * 256 + 1 * p.val = r.val; rw [e10, hr]; omega
  | ⟨1, _⟩ => show win0_1.index t (1 : Fin 2) * 1024 + 1 * k.val = k.val; rw [e11]; omega

/-- The same of c (the call's third operand). -/
theorem cRows (c : Dev nD) (t : Fin cfg0.N) (p : Fin 256) (k : Fin 1024) (r : Fin 16384) (hr : r.val = t.val * 256 + p.val) :
    (iblk m c 2 t : FVec Ideal S256x1024 .f32) (ix2 p k) = (m ((c : Thread nD τ).loc main_arg1) : FVec Ideal S16384x1024 .f32) (ix2 r k) := by
  obtain ⟨e00, e01, e10, e11, e20, e21, e30, e31, e40, e41, e50, e51, e60, e61, e70, e71⟩ := idx_facts t
  unfold iblk
  rw [View.read_apply]
  show V m c main_arg1 _ = _
  rw [V_main_arg1]
  refine congrArg _ (funext fun a => Fin.ext ?_)
  match a with
  | ⟨0, _⟩ => show win0_2.index t (0 : Fin 2) * 256 + 1 * p.val = r.val; rw [e20, hr]; omega
  | ⟨1, _⟩ => show win0_2.index t (1 : Fin 2) * 1024 + 1 * k.val = k.val; rw [e21]; omega

/-- The input weights' block is the whole re-laid array: column `g·1024 + s` of row `k` is `Wx[g, s, k]`. -/
theorem inputWeights (c : Dev nD) (t : Fin cfg0.N) (k : Fin 1024) (g : Fin 4) (s : Fin 1024) :
    (iblk m c 3 t : FVec Ideal S1024x4096 .bf16) (ix2 k (col g s))
      = (m ((c : Thread nD τ).loc main_arg3) : FVec Ideal S4x1024x1024 .f32) (ix3 g s k) := by
  obtain ⟨e00, e01, e10, e11, e20, e21, e30, e31, e40, e41, e50, e51, e60, e61, e70, e71⟩ := idx_facts t
  unfold iblk
  rw [View.read_apply]
  show (V m c main_v2 : FVec Ideal S1024x4096 .bf16) _ = _
  rw [V_inputWeights]
  refine relaid_at _ _ k g s ?_ ?_
  · show win0_3.index t (0 : Fin 2) * 1024 + 1 * k.val = k.val; rw [e30]; omega
  · show win0_3.index t (1 : Fin 2) * 4096 + 1 * (g.val * 1024 + s.val) = g.val * 1024 + s.val; rw [e31]; omega

/-- The hidden-state weights' block likewise. -/
theorem hiddenWeights (c : Dev nD) (t : Fin cfg0.N) (k : Fin 1024) (g : Fin 4) (s : Fin 1024) :
    (iblk m c 4 t : FVec Ideal S1024x4096 .bf16) (ix2 k (col g s))
      = (m ((c : Thread nD τ).loc main_arg5) : FVec Ideal S4x1024x1024 .f32) (ix3 g s k) := by
  obtain ⟨e00, e01, e10, e11, e20, e21, e30, e31, e40, e41, e50, e51, e60, e61, e70, e71⟩ := idx_facts t
  unfold iblk
  rw [View.read_apply]
  show (V m c main_v5 : FVec Ideal S1024x4096 .bf16) _ = _
  rw [V_hiddenWeights]
  refine relaid_at _ _ k g s ?_ ?_
  · show win0_4.index t (0 : Fin 2) * 1024 + 1 * k.val = k.val; rw [e40]; omega
  · show win0_4.index t (1 : Fin 2) * 4096 + 1 * (g.val * 1024 + s.val) = g.val * 1024 + s.val; rw [e41]; omega

/-- The biases' block is the whole summed array. -/
theorem biasSum (c : Dev nD) (t : Fin cfg0.N) (g : Fin 4) (s : Fin 1024) :
    (iblk m c 5 t : FVec Ideal S4x1024 .f32) (ix2 g s)
      = addf (F := Ideal) (s := S4x1024) (φ := .f32) (m ((c : Thread nD τ).loc main_arg4)) (m ((c : Thread nD τ).loc main_arg6)) (ix2 g s) := by
  obtain ⟨e00, e01, e10, e11, e20, e21, e30, e31, e40, e41, e50, e51, e60, e61, e70, e71⟩ := idx_facts t
  unfold iblk
  rw [View.read_apply]
  show (V m c main_v6 : FVec Ideal S4x1024 .f32) _ = _
  rw [V_biasSum]
  refine congrArg _ (funext fun a => Fin.ext ?_)
  match a with
  | ⟨0, _⟩ => show win0_5.index t (0 : Fin 2) * 4 + 1 * g.val = g.val; rw [e50]; omega
  | ⟨1, _⟩ => show win0_5.index t (1 : Fin 2) * 1024 + 1 * s.val = s.val; rw [e51]; omega

/-! ## A step's two blocks are blocks of the specification -/

/-- Step `t`'s gate `g` at local row `p` is the specification's at row `r = 256·t + p`. -/
theorem gate_at (c : Dev nD) (t : Fin cfg0.N) (g : Fin 4) (p : Fin 256) (s : Fin 1024) (r : Fin 16384) (hr : r.val = t.val * 256 + p.val) :
    blockGate (iblk m c 0 t) (iblk m c 1 t) (iblk m c 3 t) (iblk m c 4 t) (iblk m c 5 t) g p s
      = gate (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) g r s :=
  blockGate_eq (iblk m c 0 t) (iblk m c 1 t) (iblk m c 3 t) (iblk m c 4 t) (iblk m c 5 t) _ _ _ _ _ _ g p s r
    (fun k => xRows m c t p k r hr) (fun k => hRows m c t p k r hr)
    (fun k => inputWeights m c t k g s) (fun k => hiddenWeights m c t k g s) (biasSum m c t g s)

theorem blockCell_at (c : Dev nD) (t : Fin cfg0.N) (p : Fin 256) (s : Fin 1024) (r : Fin 16384) (hr : r.val = t.val * 256 + p.val) :
    blockCell (iblk m c 0 t) (iblk m c 1 t) (iblk m c 2 t) (iblk m c 3 t) (iblk m c 4 t) (iblk m c 5 t) p s
      = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r s := by
  unfold blockCell cell
  rw [gate_at m c t 0 p s r hr, gate_at m c t 1 p s r hr, gate_at m c t 2 p s r hr, cRows m c t p s r hr]

/-- The first output block of step `t`, at a block index `j`, is `newCell` at the array index `i` it is written to. -/
theorem cell_at (c : Dev nD) (t : Fin cfg0.N) (j : S256x1024.Idx) (i : S16384x1024.Idx)
    (h0 : (i 0).val = t.val * 256 + (j 0).val) (h1 : (i 1).val = (j 1).val) :
    out0_6 (F := Ideal) (iblk m c 0 t) (iblk m c 1 t) (iblk m c 2 t) (iblk m c 3 t) (iblk m c 4 t) (iblk m c 5 t) j
      = newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  obtain ⟨p, s, rfl⟩ : ∃ (p : Fin 256) (s : Fin 1024), j = ix2 p s := ⟨j 0, j 1, eq_ix2 j⟩
  obtain ⟨r, s', rfl⟩ : ∃ (r : Fin 16384) (s' : Fin 1024), i = ix2 r s' := ⟨i 0, i 1, eq_ix2 i⟩
  obtain rfl : s' = s := Fin.ext h1
  refine (out_cell_apply (iblk m c 0 t) (iblk m c 1 t) (iblk m c 2 t) (iblk m c 3 t) (iblk m c 4 t) (iblk m c 5 t) p s').trans ?_
  exact blockCell_at m c t p s' r h0

/-- The second output block likewise is `output`. -/
theorem hidden_at (c : Dev nD) (t : Fin cfg0.N) (j : S256x1024.Idx) (i : S16384x1024.Idx)
    (h0 : (i 0).val = t.val * 256 + (j 0).val) (h1 : (i 1).val = (j 1).val) :
    out0_7 (F := Ideal) (iblk m c 0 t) (iblk m c 1 t) (iblk m c 2 t) (iblk m c 3 t) (iblk m c 4 t) (iblk m c 5 t) j
      = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  obtain ⟨p, s, rfl⟩ : ∃ (p : Fin 256) (s : Fin 1024), j = ix2 p s := ⟨j 0, j 1, eq_ix2 j⟩
  obtain ⟨r, s', rfl⟩ : ∃ (r : Fin 16384) (s' : Fin 1024), i = ix2 r s' := ⟨i 0, i 1, eq_ix2 i⟩
  obtain rfl : s' = s := Fin.ext h1
  refine (out_hidden_apply (iblk m c 0 t) (iblk m c 1 t) (iblk m c 2 t) (iblk m c 3 t) (iblk m c 4 t) (iblk m c 5 t) p s').trans ?_
  show _ = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r s'
  unfold hidden
  rw [blockCell_at m c t p s' r h0, gate_at m c t 3 p s' r h0]

/-! ## What each step writes back, the cover, the arrays after the run -/

/-- Step `t` writes block `t` of `newCell` of the arguments to the first result, -/
theorem flushed_cell (c : Dev nD) (t : Fin cfg0.N) :
    (dats m 0 c).flushed 6 t
      = ((cfg0.win 6).blk t).view.read (Elt Ideal) (newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  obtain ⟨e00, e01, e10, e11, e20, e21, e30, e31, e40, e41, e50, e51, e60, e61, e70, e71⟩ := idx_facts t
  rw [Value.flushed6]
  funext y
  show out0_6 (F := Ideal) (iblk m c 0 t) (iblk m c 1 t) (iblk m c 2 t) (iblk m c 3 t) (iblk m c 4 t) (iblk m c 5 t) ((cfg0.win 6).xinj (grid0.coords t) y)
    = newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 6).blk t).view.emb y)
  refine cell_at m c t _ _ ?_ ?_
  · show win0_6.index t (0 : Fin 2) * 256 + 1 * (y 0).val = t.val * 256 + (y 0).val; rw [e60]; omega
  · show win0_6.index t (1 : Fin 2) * 1024 + 1 * (y 1).val = (y 1).val; rw [e61]; omega

/-- and block `t` of `output` to the second. -/
theorem flushed_hidden (c : Dev nD) (t : Fin cfg0.N) :
    (dats m 0 c).flushed 7 t
      = ((cfg0.win 7).blk t).view.read (Elt Ideal) (output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  obtain ⟨e00, e01, e10, e11, e20, e21, e30, e31, e40, e41, e50, e51, e60, e61, e70, e71⟩ := idx_facts t
  rw [Value.flushed7]
  funext y
  show out0_7 (F := Ideal) (iblk m c 0 t) (iblk m c 1 t) (iblk m c 2 t) (iblk m c 3 t) (iblk m c 4 t) (iblk m c 5 t) ((cfg0.win 7).xinj (grid0.coords t) y)
    = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y)
  refine hidden_at m c t _ _ ?_ ?_
  · show win0_7.index t (0 : Fin 2) * 256 + 1 * (y 0).val = t.val * 256 + (y 0).val; rw [e70]; omega
  · show win0_7.index t (1 : Fin 2) * 1024 + 1 * (y 1).val = (y 1).val; rw [e71]; omega

/-- An index of the first result is in step `t`'s block iff each coordinate is in the block's range. -/
theorem mem_blk6 (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v7_0).slice (win0_6.rect t)).set ↔ _
  rw [View.set_slice_whole, Rect.mem_set_unit]
  exact Iff.rfl

theorem mem_blk7 (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v7_1).slice (win0_7.rect t)).set ↔ _
  rw [View.set_slice_whole, Rect.mem_set_unit]
  exact Iff.rfl

/-- Row `r` of a result is written by step `r / 256`: the 64 row blocks cover the array. -/
theorem cover6 (i : S16384x1024.Idx) : ∃ t : Fin cfg0.N, (cfg0.win 6).flush t = true ∧ i ∈ ((cfg0.win 6).blk t).view.set := by
  have hi0 : (i 0).val < 16384 := (i 0).isLt
  have hi1 : (i 1).val < 1024 := (i 1).isLt
  have hN : grid0.N = 64 := N_0
  obtain ⟨t, ht⟩ : ∃ t : Fin cfg0.N, t.val = (i 0).val / 256 :=
    ⟨⟨(i 0).val / 256, lt_of_lt_of_eq (by omega : (i 0).val / 256 < 64) hN.symm⟩, rfl⟩
  obtain ⟨e00, e01, e10, e11, e20, e21, e30, e31, e40, e41, e50, e51, e60, e61, e70, e71⟩ := idx_facts t
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; rw [e60, ht]; omega
  | ⟨1, _⟩ => show win0_6.index t (1 : Fin 2) * 1024 ≤ (i 1).val ∧ (i 1).val < win0_6.index t (1 : Fin 2) * 1024 + 1024; rw [e61]; omega

theorem cover7 (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  have hN : grid0.N = 64 := N_0
  obtain ⟨t, ht⟩ : ∃ t : Fin cfg0.N, t.val = (i 0).val / 256 :=
    ⟨⟨(i 0).val / 256, lt_of_lt_of_eq (by omega : (i 0).val / 256 < 64) hN.symm⟩, rfl⟩
  obtain ⟨e00, e01, e10, e11, e20, e21, e30, e31, e40, e41, e50, e51, e60, e61, e70, e71⟩ := idx_facts t
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; rw [e70, ht]; omega
  | ⟨1, _⟩ => show win0_7.index t (1 : Fin 2) * 1024 ≤ (i 1).val ∧ (i 1).val < win0_7.index t (1 : Fin 2) * 1024 + 1024; rw [e71]; omega

/-- THE FIRST RESULT ARRAY after the run is `newCell` of the arguments, -/
theorem final_cell (c : Dev nD) :
    (dats m 0 c).arrAt 6 cfg0.N = newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 6 (newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_cell m c t) cover6

/-- THE SECOND is `output` of them. -/
theorem final_hidden (c : Dev nD) :
    (dats m 0 c).arrAt 7 cfg0.N = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_hidden m c t) cover7

/-- The run, read: every weakly fair execution ends with the two results at the specification's two arrays of the
    argument arrays as launched, the arguments unchanged. -/
theorem run : θ_run defs (onTc (τ := τ) (main (F := Ideal))) ⟨m, fun _ => 0, ρ⟩ fun r => ∀ c : Dev nD,
      r.2.mem ((c : Thread nD τ).loc main_v7_0) = newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v7_1) = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_cell m c), (h c).2.1.trans (final_hidden m c), (h c).2.2⟩)
    (Value.run_blocks m ρ)

end Cert.Lstm.Blocks

end
-- ==== Proof.lean ====
/-
  An LSTM cell step, fused into one kernel over 64 blocks of 256 batch rows, against the plain array program.

  Both compute, for x, c, h of shape [16384, 1024], weights Wx, Wh of shape [4, 1024, 1024] and biases bx, bh of shape
  [4, 1024], the four gate pre-activations  pre g = x·Wx[g]ᵀ + bx[g] + h·Wh[g]ᵀ + bh[g],  the new cell state
  c' = c·σ(pre 0) + σ(pre 1)·tanh(pre 2)  and the output  tanh(c')·σ(pre 3)  (`Lstm.newCell`, `Lstm.output`).

  The kernel's side: before the call each weight array is re-laid to [1024, 4096] so that gate g occupies columns
  g·1024 … g·1024 + 1023, and the two biases are added once. A grid step multiplies its 256 rows of x and of h into
  each gate's column band, adds the two products, then the summed bias, and applies the gates; the rounding of the
  matrix unit's operands to bf16 is the identity on the extended reals, a product from a zero accumulator is the plain
  sum over the contracted axis, and the logistic operation is 1 / (1 + e^(-z)). The reference's side: one contraction
  per weight array over all gates, each with its own bias added, the two sums added, the logistic function expanded
  into negate, exponential, add and divide. The two agree at every index because
      (Σ_k x·Wx + Σ_k h·Wh) + (bx + bh) = (Σ_k Wx·x + bx) + (Σ_k Wh·h + bh)
  in the commutative monoid of the extended reals under addition with commutative multiplication: no finiteness of
  the inputs is used. The 64 row blocks written back cover both result arrays.

  The kernel's idealization rewrote nothing, so the preservation claim is trivial; the three frames are the generated
  frame runs (the reference's is its generated run with the results dropped).
-/
import proofs.«169616_j11759620456639_2_alg».proof.Defs
import proofs.«169616_j11759620456639_2_alg».proof.Proof.Gen.Kernel
import proofs.«169616_j11759620456639_2_alg».proof.Proof.Gen.Kernel.Frame
import proofs.«169616_j11759620456639_2_alg».proof.Proof.Gen.KernelIdeal
import proofs.«169616_j11759620456639_2_alg».proof.Proof.Gen.KernelIdeal.Frame
import proofs.«169616_j11759620456639_2_alg».proof.Proof.Gen.KernelIdeal.Value
import proofs.«169616_j11759620456639_2_alg».proof.Proof.Gen.ReferenceIdeal
import proofs.«169616_j11759620456639_2_alg».proof.Proof.Gen.ReferenceIdeal.Run
import proofs.«169616_j11759620456639_2_alg».proof.Proof.Gen.ReferenceIdeal.Read
import proofs.«169616_j11759620456639_2_alg».proof.Proof.Gen.Pre_finite_inputs
import proofs.«169616_j11759620456639_2_alg».proof.Proof.LstmSpec
import proofs.«169616_j11759620456639_2_alg».proof.Proof.LstmReference
import proofs.«169616_j11759620456639_2_alg».proof.Proof.LstmBlocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments: its generated run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with `newCell` and `output` of arguments that agree: the kernel by its 64 row blocks
    (`Lstm.Blocks.run`), the reference by its generated run read operation by operation (`Lstm.Ref`). -/
theorem algebraic : Cert.algebraic_KernelIdeal_ReferenceIdeal := by
  intro m ρ m' ρ' _ hagree
  refine ⟨fun c => Cert.Lstm.newCell (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Lstm.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.Lstm.Blocks.run m ρ, ?_⟩
  refine (θ_run Cert.ReferenceIdeal.defs _ _).mono (fun _ h c => ⟨?_, ?_, (h c).2.2⟩)
    (Cert.ReferenceIdeal.Value.run (F := Ideal) m' ρ')
  · refine (h c).1.trans ?_
    refine (Cert.ReferenceIdeal.Read.val_main_v32_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))).trans ?_
    rw [Cert.Lstm.Ref.newCell_eq,
      (hagree c).1, (hagree c).2.1, (hagree c).2.2.1, (hagree c).2.2.2.1, (hagree c).2.2.2.2.1, (hagree c).2.2.2.2.2.1,
      (hagree c).2.2.2.2.2.2]
  · rw [(h c).2.1, Cert.ReferenceIdeal.Read.val_main_v42_eq, Cert.Lstm.Ref.output_eq,
      (hagree c).1, (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
